-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S1 : Shape := ⟨1, ![1]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S2048 : S_.BroadcastsInDim S2048 (![] : Fin 0 → Fin S2048.rank)
  reducesTo_S2048_S_d0 : S2048.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S2048 .f32) (main_arg5 : FVec F S1 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S2x2048x2048 .f32) (main_arg1 : FVec F S8192x2048 .f32) (main_arg2 : FVec F S2048x8192 .f32) (main_arg3 : FVec F S8192 .f32) (main_arg4 : FVec F S2048 .f32) (main_arg5 : FVec F S1 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_v13 main_v16
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S1 : Shape := ⟨1, ![1]⟩
abbrev S4096x2048 : Shape := ⟨2, ![4096, 2048]⟩
abbrev S1x8192 : Shape := ⟨2, ![1, 8192]⟩
abbrev S_ : Shape := ⟨0, ![]⟩
abbrev S1x2048 : Shape := ⟨2, ![1, 2048]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩

abbrev nBuf : Space → Nat
  | .hbm => 18
  | .vmem => 11
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S2048x8192, .f32⟩
  | .hbm, ⟨3, _⟩ => ⟨S8192, .f32⟩
  | .hbm, ⟨4, _⟩ => ⟨S2048, .f32⟩
  | .hbm, ⟨5, _⟩ => ⟨S1, .f32⟩
  | .hbm, ⟨6, _⟩ => ⟨S4096x2048, .f32⟩
  | .hbm, ⟨7, _⟩ => ⟨S8192x2048, .f32⟩
  | .hbm, ⟨8, _⟩ => ⟨S8192x2048, .bf16⟩
  | .hbm, ⟨9, _⟩ => ⟨S2048x8192, .f32⟩
  | .hbm, ⟨10, _⟩ => ⟨S2048x8192, .bf16⟩
  | .hbm, ⟨11, _⟩ => ⟨S1x8192, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S1x2048, .f32⟩
  | .hbm, ⟨16, _⟩ => ⟨S4096x2048, .f32⟩
  | .hbm, ⟨17, _⟩ => ⟨S2x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2x2048x2048_S4096x2048 : S2x2048x2048.ShapeCasts S4096x2048
  bitsLt_bf16_f32 : FTy.bits .bf16 < FTy.bits .f32
  shapeCasts_S8192_S1x8192 : S8192.ShapeCasts S1x8192
  shapeCasts_S1_S_ : S1.ShapeCasts S_
  bcast_S_S2048 : S_.BroadcastsInDim S2048 (![] : Fin 0 → Fin S2048.rank)
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096x2048_S2x2048x2048 : S4096x2048.ShapeCasts S2x2048x2048
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x8192.size a
  hwx0_2 : ∀ i : grid0.Coords, EltTy.bits .bf16 = 32 ∨ (Rect.block (s := S2048x8192) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x2048.size a
  hwx0_5 : ∀ i : grid0.Coords, EltTy.bits .f32 = 32 ∨ (Rect.block (s := S4096x2048) S512x2048.size (cc0_transform_5 i) (hinb0_5 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S1 : Shape := ⟨1, ![1]⟩
abbrev S2x2048x8192 : Shape := ⟨3, ![2, 2048, 8192]⟩
abbrev S1x1x8192 : Shape := ⟨3, ![1, 1, 8192]⟩
abbrev S_ : Shape := ⟨0, ![]⟩
abbrev S1x1x2048 : Shape := ⟨3, ![1, 1, 2048]⟩
abbrev S1x1x1 : Shape := ⟨3, ![1, 1, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S2048x8192, .f32⟩
  | .hbm, ⟨3, _⟩ => ⟨S8192, .f32⟩
  | .hbm, ⟨4, _⟩ => ⟨S2048, .f32⟩
  | .hbm, ⟨5, _⟩ => ⟨S1, .f32⟩
  | .hbm, ⟨6, _⟩ => ⟨S8192x2048, .f32⟩
  | .hbm, ⟨7, _⟩ => ⟨S2048x8192, .f32⟩
  | .hbm, ⟨8, _⟩ => ⟨S2x2048x8192, .f32⟩
  | .hbm, ⟨9, _⟩ => ⟨S1x1x8192, .f32⟩
  | .hbm, ⟨10, _⟩ => ⟨S2x2048x8192, .f32⟩
  | .hbm, ⟨11, _⟩ => ⟨S2x2048x8192, .f32⟩
  | .hbm, ⟨12, _⟩ => ⟨S_, .f32⟩
  | .hbm, ⟨13, _⟩ => ⟨S2x2048x8192, .f32⟩
  | .hbm, ⟨14, _⟩ => ⟨S2x2048x8192, .f32⟩
  | .hbm, ⟨15, _⟩ => ⟨S2x2048x2048, .f32⟩
  | .hbm, ⟨16, _⟩ => ⟨S1x1x2048, .f32⟩
  | .hbm, ⟨17, _⟩ => ⟨S2x2048x2048, .f32⟩
  | .hbm, ⟨18, _⟩ => ⟨S2x2048x2048, .f32⟩
  | .hbm, ⟨19, _⟩ => ⟨S1x1x1, .f32⟩
  | .hbm, ⟨20, _⟩ => ⟨S2x2048x2048, .f32⟩
  | .hbm, ⟨21, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S2x2048x8192_0_1_2 : S1x1x8192.BroadcastsInDim S2x2048x8192 (![0, 1, 2] : Fin 3 → Fin S2x2048x8192.rank)
  bcast_S_S2x2048x8192 : S_.BroadcastsInDim S2x2048x8192 (![] : Fin 0 → Fin S2x2048x8192.rank)
  bcast_S2048_S1x1x2048_2 : S2048.BroadcastsInDim S1x1x2048 (![2] : Fin 1 → Fin S1x1x2048.rank)
  bcast_S1x1x2048_S2x2048x2048_0_1_2 : S1x1x2048.BroadcastsInDim S2x2048x2048 (![0, 1, 2] : Fin 3 → Fin S2x2048x2048.rank)
  bcast_S1_S1x1x1_2 : S1.BroadcastsInDim S1x1x1 (![2] : Fin 1 → Fin S1x1x1.rank)
  bcast_S1x1x1_S2x2048x2048_0_1_2 : S1x1x1.BroadcastsInDim S2x2048x2048 (![0, 1, 2] : Fin 3 → Fin S2x2048x2048.rank)
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.CaseValues.lean ====
/-
  What the kernel body leaves in the output block's staging buffer, per control case, as a value.

  The body has one accumulating store and two conditional ones. With `acc` the buffer's running contents,
  `step x w s v acc` the accumulating store's value (`acc` plus the two-layer product of the point's blocks),
  `zero` the all-zero block and `fin a ds` the final scaling:

    * at the first hidden tile of a row block the buffer is zeroed first:  `step … zero`;
    * at a middle hidden tile:                                             `step … acc`;
    * at the last hidden tile the sum is scaled after the step:            `fin (step … acc) ds`.

  Each is the value of the LAST store that covers the whole block; a load of the buffer between two stores
  reads what the earlier store wrote. Nothing here depends on the float instance.
-/
import proofs.«126949_j51934744543462_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CaseValues

open Cert.KernelIdeal Cert.KernelIdeal.Gen

variable {F : FTy → Type} [FloatOps F]

/-- The zero offset of a whole-block access. -/
theorem hz : (![0, 0] : Fin 2 → Nat) = fun _ => 0 := funext fun a => by fin_cases a <;> rfl

/-- A middle hidden tile: the running contents plus this tile's contribution. -/
theorem out_B (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x2048 .f32) (harg6 : arg6.IsWhole) (arg7 : Memref sig .tc .vmem S512x2048 .f32) (harg7 : arg7.IsWhole) (hc0 : ¬cond0_0 i) (hc1 : ¬cond0_1 i)
    (x0 : Vec F S512x2048 .f32) (x1 : Vec F S512x2048 .bf16) (x2 : Vec F S2048x512 .bf16) (x3 : Vec F S1x512 .f32) (x4 : Vec F S1x2048 .f32) (xo5 : Vec F S512x2048 .f32) :
    out0_B_5 c i arg2 harg2 arg3 harg3 arg4 harg4 arg5 harg5 arg6 harg6 arg7 harg7 hc0 hc1 x0 x1 x2 x3 x4 xo5 = k0_pay2 x0 x1 x3 x2 xo5 := by
  unfold out0_B_5
  rw [View.read_writes_eq_canon _ _ _ (cover0_B_5 c i arg2 harg2 arg3 harg3 arg4 harg4 arg5 harg5 arg6 harg6 arg7 harg7 hc0 hc1 x0 x1 x2 x3 x4 xo5)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x2048) hz, View.ld_unit_zero (S := S2048x512) hz, View.ld_unit_zero (S := S1x512) hz, View.ld_unit_zero (S := S1x2048) hz]

/-- The first hidden tile: the buffer is zeroed, read back, and the tile's contribution added to the zeros. -/
theorem out_A (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x2048 .f32) (harg6 : arg6.IsWhole) (arg7 : Memref sig .tc .vmem S512x2048 .f32) (harg7 : arg7.IsWhole) (hc0 : cond0_0 i) (hc1 : ¬cond0_1 i)
    (x0 : Vec F S512x2048 .f32) (x1 : Vec F S512x2048 .bf16) (x2 : Vec F S2048x512 .bf16) (x3 : Vec F S1x512 .f32) (x4 : Vec F S1x2048 .f32) :
    out0_A_5 c i arg2 harg2 arg3 harg3 arg4 harg4 arg5 harg5 arg6 harg6 arg7 harg7 hc0 hc1 x0 x1 x2 x3 x4 = k0_pay2 x0 x1 x3 x2 (k0_pay1 (F := F)) := by
  unfold out0_A_5
  rw [View.read_writes_eq_canon _ _ _ (cover0_A_5 c i arg2 harg2 arg3 harg3 arg4 harg4 arg5 harg5 arg6 harg6 arg7 harg7 hc0 hc1 x0 x1 x2 x3 x4)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread,
    View.ld_unit_zero (S := S512x2048) hz, View.ld_unit_zero (S := S2048x512) hz, View.ld_unit_zero (S := S1x512) hz, View.ld_unit_zero (S := S1x2048) hz]

/-- The last hidden tile: the accumulated block, read back after the accumulating store, times the row of scales. -/
theorem out_C (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x2048 .f32) (harg6 : arg6.IsWhole) (arg7 : Memref sig .tc .vmem S512x2048 .f32) (harg7 : arg7.IsWhole) (hc0 : ¬cond0_0 i) (hc1 : cond0_1 i)
    (x0 : Vec F S512x2048 .f32) (x1 : Vec F S512x2048 .bf16) (x2 : Vec F S2048x512 .bf16) (x3 : Vec F S1x512 .f32) (x4 : Vec F S1x2048 .f32) (xo5 : Vec F S512x2048 .f32) :
    out0_C_5 c i arg2 harg2 arg3 harg3 arg4 harg4 arg5 harg5 arg6 harg6 arg7 harg7 hc0 hc1 x0 x1 x2 x3 x4 xo5 = k0_pay3 (k0_pay2 x0 x1 x3 x2 xo5) x4 := by
  unfold out0_C_5
  rw [View.read_writes_eq_canon _ _ _ (cover0_C_5 c i arg2 harg2 arg3 harg3 arg4 harg4 arg5 harg5 arg6 harg6 arg7 harg7 hc0 hc1 x0 x1 x2 x3 x4 xo5)]
  unfold kernelRun0_C
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread,
    View.ld_unit_zero (S := S512x2048) hz, View.ld_unit_zero (S := S2048x512) hz, View.ld_unit_zero (S := S1x512) hz, View.ld_unit_zero (S := S1x2048) hz]

end Cert.KernelIdeal.CaseValues

end
-- ==== Proof.PayloadRead.lean ====
/-
  The body's three stored values read at an index, over the extended reals.

  With `x` the block of inputs (512 rows, 2048 features), `w` the block of 512 rows of the up-projection's
  signs, `s` their 512 scales, `v` the matching 512 columns of the down-projection's signs and `acc` the
  running block, the accumulating store writes at (r, d)

      acc (r, d) + ∑ j < 512, max ((∑ k < 2048, x (r, k) · w (j, k)) · s (0, j)) 0 · v (d, j).

  Both matrix products contract the LAST axis of both operands (each right operand is stored transposed) into a
  zero accumulator, so each is the plain sum; a change of float format is the identity. The zeroing store writes
  0 and the final store multiplies by the row of scales.
-/
import proofs.«126949_j51934744543462_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.PayloadRead

open Cert.KernelIdeal Cert.KernelIdeal.Gen

/-! ## The up-projection of a block: rows of `x` against rows of `w` -/

theorem up_lhs0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem up_lhs1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
theorem up_rhs0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem up_rhs1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- Entry (r, j) of the up-projection's block is row r of `a` against row j of `b`. -/
theorem up_apply (a : FVec Ideal S512x2048 .bf16) (b : FVec Ideal S512x2048 .bf16) (r : Fin 512) (j : Fin 512) :
    matmul dot_S512x2048_S512x2048_S512x512_1_1_0_0_n_n none a b (constant (F := Ideal) S512x512 .f32 0x00000000#32) (ix2 r j)
      = ∑ k : Fin 2048, a (ix2 r k) * b (ix2 j k) := by
  simp only [matmul]
  rw [Ideal.matmul_constant_zero_apply, ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 r j) ((contrEquiv1 dot_S512x2048_S512x2048_S512x512_1_1_0_0_n_n 2048 rfl rfl).symm k) = ix2 r k := funext fun ax => Fin.ext (by
    match ax with
    | ⟨0, _⟩ => exact up_lhs0 _ _
    | ⟨1, _⟩ => exact (up_lhs1 _ _).trans hk)
  have er : dot_S512x2048_S512x2048_S512x512_1_1_0_0_n_n.rhsIdx (ix2 r j) ((contrEquiv1 dot_S512x2048_S512x2048_S512x512_1_1_0_0_n_n 2048 rfl rfl).symm k) = ix2 j k := funext fun ax => Fin.ext (by
    match ax with
    | ⟨0, _⟩ => exact up_rhs0 _ _
    | ⟨1, _⟩ => exact (up_rhs1 _ _).trans hk)
  rw [el, er]

/-! ## The down-projection of a block: rows of the hidden block against rows of `v` -/

theorem dn_lhs0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem dn_lhs1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem dn_rhs0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem dn_rhs1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- Entry (r, d) of the down-projection's block is row r of `a` against row d of `b`. -/
theorem dn_apply (a : FVec Ideal S512x512 .bf16) (b : FVec Ideal S2048x512 .bf16) (r : Fin 512) (d : Fin 2048) :
    matmul dot_S512x512_S2048x512_S512x2048_1_1_0_0_n_n none a b (constant (F := Ideal) S512x2048 .f32 0x00000000#32) (ix2 r d)
      = ∑ j : Fin 512, a (ix2 r j) * b (ix2 d j) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 r d) ((contrEquiv1 dot_S512x512_S2048x512_S512x2048_1_1_0_0_n_n 512 rfl rfl).symm k) = ix2 r k := funext fun ax => Fin.ext (by
    match ax with
    | ⟨0, _⟩ => exact dn_lhs0 _ _
    | ⟨1, _⟩ => exact (dn_lhs1 _ _).trans hk)
  have er : dot_S512x512_S2048x512_S512x2048_1_1_0_0_n_n.rhsIdx (ix2 r d) ((contrEquiv1 dot_S512x512_S2048x512_S512x2048_1_1_0_0_n_n 512 rfl rfl).symm k) = ix2 d k := funext fun ax => Fin.ext (by
    match ax with
    | ⟨0, _⟩ => exact dn_rhs0 _ _
    | ⟨1, _⟩ => exact (dn_rhs1 _ _).trans hk)
  rw [el, er]

/-! ## The three stored values -/

/-- The hidden block at (r, j): the up-projection scaled by the tile's scale, clipped below at 0. -/
def hid (x : Vec Ideal S512x2048 .f32) (w : Vec Ideal S512x2048 .bf16) (s : Vec Ideal S1x512 .f32) (r : Fin 512) (j : Fin 512) : EReal :=
  max ((∑ k : Fin 2048, x (ix2 r k) * w (ix2 j k)) * s (ix2 (0 : Fin 1) j)) 0

/-- The zeroing store writes 0 everywhere. -/
theorem pay1_apply (i : S512x2048.Idx) : k0_pay1 (F := Ideal) i = 0 := by
  show Ideal.ofBits .f32 0x00000000#32 = 0
  exact Ideal.ofBits_zero_f32

/-- The accumulating store at (r, d). -/
theorem pay2_apply (x : Vec Ideal S512x2048 .f32) (w : Vec Ideal S512x2048 .bf16) (s : Vec Ideal S1x512 .f32)
    (v : Vec Ideal S2048x512 .bf16) (acc : Vec Ideal S512x2048 .f32) (r : Fin 512) (d : Fin 2048) :
    k0_pay2 (F := Ideal) x w s v acc (ix2 r d) = acc (ix2 r d) + ∑ j : Fin 512, hid x w s r j * v (ix2 d j) := by
  unfold k0_pay2
  simp only [shapeCast_self]
  rw [addf_apply, dn_apply]
  refine congrArg (acc (ix2 r d) + ·) (Finset.sum_congr rfl fun j _ => ?_)
  rw [truncf_apply, maximumf_apply, mulf_apply, up_apply, broadcastTo_1b_ab_apply, broadcast_apply]
  simp only [truncf_apply]
  show max _ (Ideal.ofBits .f32 0x00000000#32) * _ = _
  rw [Ideal.ofBits_zero_f32]
  rfl

/-- The final store at (r, d): the accumulated entry times the column's scale. -/
theorem pay3_apply (a : Vec Ideal S512x2048 .f32) (ds : Vec Ideal S1x2048 .f32) (r : Fin 512) (d : Fin 2048) :
    k0_pay3 (F := Ideal) a ds (ix2 r d) = a (ix2 r d) * ds (ix2 (0 : Fin 1) d) := by
  unfold k0_pay3
  simp only [shapeCast_self]
  rw [mulf_apply, broadcastTo_1b_ab_apply]

end Cert.KernelIdeal.PayloadRead

end
-- ==== Proof.Spec.lean ====
/-
  The two-layer perceptron with sign weights, as one function of its arrays over the extended reals, and the
  one law the tiled computation needs: a sum over the 8192 hidden units is the sum, over 16 tiles of 512, of the
  tiles' sums (addition of extended reals is commutative and associative; no finiteness is involved).

  With x the 4096 × 2048 inputs, w the 8192 × 2048 up-projection, s its 8192 scales (one row), v the
  2048 × 8192 down-projection:

      hidden R h    = max ((∑ k, x (R, k) · w (h, k)) · s h) 0
      contrib R d b = ∑ j < 512, hidden R (512 b + j) · v (d, 512 b + j)
      ∑ b < 16, contrib R d b = ∑ h < 8192, hidden R h · v (d, h).
-/
import Idealize.ShloMosaic.PureOps.Ideal
import Idealize.ShloMosaic.Lib.ValueIdx

noncomputable section

open Idealize.ShloMosaic Idealize.ShloMosaic.ValueIdx

namespace Cert.MlpSpec

/-- A matrix of extended reals with literal extents. -/
abbrev Mat (a b : ℕ) : Type := (⟨2, ![a, b]⟩ : Shape).Idx → EReal

/-- Row r of row block a, among the 4096 rows. -/
def rowIx (a : Fin 8) (r : Fin 512) : Fin 4096 := ⟨512 * a.val + r.val, by omega⟩
/-- Hidden unit j of hidden tile b, among the 8192. -/
def hidIx (b : Fin 16) (j : Fin 512) : Fin 8192 := ⟨512 * b.val + j.val, by omega⟩

variable (X : Mat 4096 2048) (W : Mat 8192 2048) (S : Mat 1 8192) (Vd : Mat 2048 8192)

/-- The hidden activation of row R at hidden unit h. -/
def hidden (R : Fin 4096) (h : Fin 8192) : EReal :=
  max ((∑ k : Fin 2048, X (ix2 R k) * W (ix2 h k)) * S (ix2 (0 : Fin 1) h)) 0

/-- Hidden tile b's share of output entry (R, d). -/
def contrib (R : Fin 4096) (d : Fin 2048) (b : Fin 16) : EReal :=
  ∑ j : Fin 512, hidden X W S R (hidIx b j) * Vd (ix2 d (hidIx b j))

/-- The same for a tile number given as a natural number (0 beyond the 16 tiles). -/
def contribN (R : Fin 4096) (d : Fin 2048) (b : ℕ) : EReal :=
  if h : b < 16 then contrib X W S Vd R d ⟨b, h⟩ else 0

/-- The shares of the first n tiles, summed. -/
def partialSum (R : Fin 4096) (d : Fin 2048) (n : ℕ) : EReal :=
  ∑ b ∈ Finset.range n, contribN X W S Vd R d b

theorem partialSum_zero (R : Fin 4096) (d : Fin 2048) : partialSum X W S Vd R d 0 = 0 := by
  unfold partialSum; exact Finset.sum_range_zero _

/-- The sum of the first n + 1 shares is the first n plus the next. -/
theorem partialSum_succ (R : Fin 4096) (d : Fin 2048) (n : ℕ) (h : n < 16) :
    partialSum X W S Vd R d (n + 1) = partialSum X W S Vd R d n + contrib X W S Vd R d ⟨n, h⟩ := by
  unfold partialSum
  rw [Finset.sum_range_succ]
  unfold contribN
  rw [dif_pos h]

/-- One tile's worth is the first tile's share. -/
theorem partialSum_one (R : Fin 4096) (d : Fin 2048) :
    partialSum X W S Vd R d 1 = contrib X W S Vd R d ⟨0, by decide⟩ := by
  rw [partialSum_succ X W S Vd R d 0 (by decide), partialSum_zero, zero_add]

/-- A tile and a position in it number the hidden units. -/
theorem tile_equiv (b : Fin 16) (j : Fin 512) : (finProdFinEquiv (b, j) : Fin (16 * 512)) = hidIx b j :=
  Fin.ext (by show j.val + 512 * b.val = 512 * b.val + j.val; omega)

/-- THE LAW: the sixteen tiles' shares sum to the whole contraction over the hidden units. -/
theorem partialSum_full (R : Fin 4096) (d : Fin 2048) :
    partialSum X W S Vd R d 16 = ∑ h : Fin 8192, hidden X W S R h * Vd (ix2 d h) := by
  unfold partialSum
  rw [Finset.sum_range (fun b => contribN X W S Vd R d b)]
  have e : ∀ b : Fin 16, contribN X W S Vd R d b.val = contrib X W S Vd R d b := fun b => by
    unfold contribN; rw [dif_pos b.isLt]
  rw [Finset.sum_congr rfl fun b _ => e b]
  unfold contrib
  rw [← Equiv.sum_comp (finProdFinEquiv : Fin 16 × Fin 512 ≃ Fin (16 * 512))
    (fun h : Fin 8192 => hidden X W S R h * Vd (ix2 d h)), Fintype.sum_prod_type]
  refine Finset.sum_congr rfl fun b _ => Finset.sum_congr rfl fun j _ => ?_
  rw [tile_equiv]

/-- The kernel's result at (R, d): the contraction over the hidden units times the column's (folded) scale. -/
def out (DS : Mat 1 2048) (R : Fin 4096) (d : Fin 2048) : EReal :=
  (∑ h : Fin 8192, hidden X W S R h * Vd (ix2 d h)) * DS (ix2 (0 : Fin 1) d)

end Cert.MlpSpec

end
-- ==== Proof.Blocks.lean ====
/-
  The windows' blocks at a grid point, read off their arrays.

  The grid has 8 × 16 points; point t works on row block t / 16 (512 of the 4096 rows) and hidden tile t % 16
  (512 of the 8192 hidden units). At that point
    * the input block is rows 512·(t/16) … of the inputs, all 2048 features;
    * the up-projection block is rows 512·(t%16) … of its signs, all features;
    * the down-projection block is all 2048 rows, columns 512·(t%16) … of its signs;
    * the up-scales' block is columns 512·(t%16) … of their one row;
    * the down-scales' block is their whole row.
  A block's entry sits in the array at (block index × block extent + coordinate inside the block) on each axis.
-/
import proofs.«126949_j51934744543462_2_alg».proof.Proof.Gen.KernelIdeal.Frame
import Idealize.ShloMosaic.Lib.Pipeline.Value
import Idealize.ShloMosaic.Lib.Tactic
import Idealize.ShloMosaic.Lib.ValueIdx
import proofs.«126949_j51934744543462_2_alg».proof.Proof.Spec

noncomputable section

open Idealize.ShloMosaic Idealize.ShloMosaic.TcCoe Idealize.SL.Sem
open Idealize.ShloMosaic.Pipeline (Dat)
open Idealize.ShloMosaic.ValueIdx

namespace Cert.KernelIdeal.Blocks

open Cert.KernelIdeal Cert.KernelIdeal.Gen Cert.MlpSpec

variable {F : FTy → Type} [FloatOps F]
variable (m : (ℓ : Loc nD τ sig) → Buf (Elt F) ℓ)

/-- The row block a point works on, and its hidden tile. -/
def mtOf (t : Fin cfg0.N) : Fin 8 := ⟨t.val / 16, by have := t.isLt; have hN : cfg0.N = 128 := N_0; omega⟩
def htOf (t : Fin cfg0.N) : Fin 16 := ⟨t.val % 16, by omega⟩

/-- The windows' block indices at every point, decided over the grid. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val % 16
    ∧ win0_3.index t (0 : Fin 2) = 0 ∧ win0_3.index t (1 : Fin 2) = t.val % 16
    ∧ win0_4.index t (0 : Fin 2) = 0 ∧ win0_4.index t (1 : Fin 2) = 0
    ∧ win0_5.index t (0 : Fin 2) = t.val / 16 ∧ win0_5.index t (1 : Fin 2) = 0 :=
  (by decide +kernel : ∀ t : Fin grid0.N, _)

/-- The input block. -/
theorem blk0_apply (c : Dev nD) (t : Fin cfg0.N) (r : Fin 512) (k : Fin 2048) :
    (iblk m c 0 t : Vec F S512x2048 .f32) (ix2 r k) = V m c main_v0 (ix2 (rowIx (mtOf t) r) k) := by
  obtain ⟨h0, h1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 512 + 1 * r.val = 512 * (t.val / 16) + r.val; rw [h0]; omega
  | ⟨1, _⟩ => show win0_0.index t (1 : Fin 2) * 2048 + 1 * k.val = k.val; rw [h1]; omega

/-- The up-projection's block. -/
theorem blk1_apply (c : Dev nD) (t : Fin cfg0.N) (j : Fin 512) (k : Fin 2048) :
    (iblk m c 1 t : Vec F S512x2048 .bf16) (ix2 j k) = V m c main_v2 (ix2 (hidIx (htOf t) j) k) := by
  obtain ⟨-, -, h0, h1, -⟩ := idx_facts t
  unfold iblk
  rw [View.read_apply]
  show V m c main_v2 _ = V m c main_v2 _
  refine congrArg (V m c main_v2) (funext fun a => Fin.ext ?_)
  match a with
  | ⟨0, _⟩ => show win0_1.index t (0 : Fin 2) * 512 + 1 * j.val = 512 * (t.val % 16) + j.val; rw [h0]; omega
  | ⟨1, _⟩ => show win0_1.index t (1 : Fin 2) * 2048 + 1 * k.val = k.val; rw [h1]; omega

/-- The down-projection's block. -/
theorem blk2_apply (c : Dev nD) (t : Fin cfg0.N) (d : Fin 2048) (j : Fin 512) :
    (iblk m c 2 t : Vec F S2048x512 .bf16) (ix2 d j) = V m c main_v4 (ix2 d (hidIx (htOf t) j)) := by
  obtain ⟨-, -, -, -, h0, h1, -⟩ := idx_facts t
  unfold iblk
  rw [View.read_apply]
  show V m c main_v4 _ = V m c main_v4 _
  refine congrArg (V m c main_v4) (funext fun a => Fin.ext ?_)
  match a with
  | ⟨0, _⟩ => show win0_2.index t (0 : Fin 2) * 2048 + 1 * d.val = d.val; rw [h0]; omega
  | ⟨1, _⟩ => show win0_2.index t (1 : Fin 2) * 512 + 1 * j.val = 512 * (t.val % 16) + j.val; rw [h1]; omega

/-- The up-scales' block. -/
theorem blk3_apply (c : Dev nD) (t : Fin cfg0.N) (u : Fin 1) (j : Fin 512) :
    (iblk m c 3 t : Vec F S1x512 .f32) (ix2 u j) = V m c main_v5 (ix2 (0 : Fin 1) (hidIx (htOf t) j)) := by
  obtain ⟨-, -, -, -, -, -, h0, h1, -⟩ := idx_facts t
  unfold iblk
  rw [View.read_apply]
  show V m c main_v5 _ = V m c main_v5 _
  refine congrArg (V m c main_v5) (funext fun a => Fin.ext ?_)
  match a with
  | ⟨0, _⟩ => show win0_3.index t (0 : Fin 2) * 1 + 1 * u.val = 0; rw [h0]; omega
  | ⟨1, _⟩ => show win0_3.index t (1 : Fin 2) * 512 + 1 * j.val = 512 * (t.val % 16) + j.val; rw [h1]; omega

/-- The down-scales' block. -/
theorem blk4_apply (c : Dev nD) (t : Fin cfg0.N) (u : Fin 1) (d : Fin 2048) :
    (iblk m c 4 t : Vec F S1x2048 .f32) (ix2 u d) = V m c main_v9 (ix2 (0 : Fin 1) d) := by
  obtain ⟨-, -, -, -, -, -, -, -, h0, h1, -⟩ := idx_facts t
  unfold iblk
  rw [View.read_apply]
  show V m c main_v9 _ = V m c main_v9 _
  refine congrArg (V m c main_v9) (funext fun a => Fin.ext ?_)
  match a with
  | ⟨0, _⟩ => show win0_4.index t (0 : Fin 2) * 1 + 1 * u.val = 0; rw [h0]; omega
  | ⟨1, _⟩ => show win0_4.index t (1 : Fin 2) * 2048 + 1 * d.val = d.val; rw [h1]; omega

end Cert.KernelIdeal.Blocks

end
-- ==== Proof.Accum.lean ====
/-
  The accumulation across the hidden tiles, over the extended reals.

  Fix a row block. Its output block's staging buffer is carried across the 16 hidden tiles: zeroed at the first,
  incremented by each tile's share, and scaled after the last. With `hidden`, `contrib` and `partialSum` as in
  the specification, read at the arrays as the kernel's region finds them, the buffer after point t holds at
  (r, d), with R = 512·(t/16) + r,

      contrib R d 0 + … + contrib R d (t % 16)                                before the last tile,
      (contrib R d 0 + … + contrib R d 15) · ds d                             at the last tile.

  By induction on the point: the first tile of a row block starts from zeros whatever came before, and a later
  tile adds to what the point before left, which belongs to the same row block.
-/
import proofs.«126949_j51934744543462_2_alg».proof.Proof.CaseValues
import proofs.«126949_j51934744543462_2_alg».proof.Proof.PayloadRead
import proofs.«126949_j51934744543462_2_alg».proof.Proof.Blocks
import proofs.«126949_j51934744543462_2_alg».proof.Proof.Spec
import proofs.«126949_j51934744543462_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.Accum

open Cert.KernelIdeal Cert.KernelIdeal.Gen Cert.KernelIdeal.Blocks Cert.MlpSpec

/-- The accumulating store on blocks that are restrictions of whole arrays (row block a, hidden tile b) adds
    tile b's share. -/
theorem step_of_blocks (X : Mat 4096 2048) (W : Mat 8192 2048) (S : Mat 1 8192) (Vd : Mat 2048 8192) (a : Fin 8) (b : Fin 16)
    (x : Vec Ideal S512x2048 .f32) (w : Vec Ideal S512x2048 .bf16) (s : Vec Ideal S1x512 .f32) (v : Vec Ideal S2048x512 .bf16)
    (hx : ∀ r k, x (ix2 r k) = X (ix2 (rowIx a r) k)) (hw : ∀ j k, w (ix2 j k) = W (ix2 (hidIx b j) k))
    (hs : ∀ j, s (ix2 (0 : Fin 1) j) = S (ix2 (0 : Fin 1) (hidIx b j))) (hv : ∀ d j, v (ix2 d j) = Vd (ix2 d (hidIx b j)))
    (acc : Vec Ideal S512x2048 .f32) (r : Fin 512) (d : Fin 2048) :
    k0_pay2 (F := Ideal) x w s v acc (ix2 r d) = acc (ix2 r d) + contrib X W S Vd (rowIx a r) d b := by
  refine (PayloadRead.pay2_apply x w s v acc r d).trans ?_
  refine congrArg (acc (ix2 r d) + ·) (Finset.sum_congr rfl fun j _ => ?_)
  unfold PayloadRead.hid MlpSpec.hidden
  rw [hv d j, hs j, Finset.sum_congr rfl fun k _ => by rw [hx r k, hw j k]]

variable (m : (ℓ : Loc nD τ sig) → Buf (Elt Ideal) ℓ)

/-- The arrays as the kernel's region finds them, as matrices of extended reals. -/
abbrev aX (c : Dev nD) : Mat 4096 2048 := V m c main_v0
abbrev aW (c : Dev nD) : Mat 8192 2048 := V m c main_v2
abbrev aV (c : Dev nD) : Mat 2048 8192 := V m c main_v4
abbrev aS (c : Dev nD) : Mat 1 8192 := V m c main_v5
abbrev aD (c : Dev nD) : Mat 1 2048 := V m c main_v9

/-- The shares summed, at those arrays. -/
abbrev psum (c : Dev nD) (R : Fin 4096) (d : Fin 2048) (n : ℕ) : EReal :=
  partialSum (aX m c) (aW m c) (aS m c) (aV m c) R d n

/-- The accumulating store at a point adds the point's tile's share. -/
theorem step_apply (c : Dev nD) (t : Fin cfg0.N) (acc : Vec Ideal S512x2048 .f32) (r : Fin 512) (d : Fin 2048) :
    k0_pay2 (F := Ideal) (iblk m c 0 t) (iblk m c 1 t) (iblk m c 3 t) (iblk m c 2 t) acc (ix2 r d)
      = acc (ix2 r d) + contrib (aX m c) (aW m c) (aS m c) (aV m c) (rowIx (mtOf t) r) d (htOf t) :=
  step_of_blocks (aX m c) (aW m c) (aS m c) (aV m c) (mtOf t) (htOf t) (iblk m c 0 t) (iblk m c 1 t) (iblk m c 3 t) (iblk m c 2 t)
    (fun r k => blk0_apply m c t r k) (fun j k => blk1_apply m c t j k) (fun j => blk3_apply m c t 0 j)
    (fun d j => blk2_apply m c t d j) acc r d

/-- THE INVARIANT: what the output block's staging buffer holds after the body at point n. -/
theorem outsAt_apply (c : Dev nD) : ∀ (n : ℕ) (hn : n < cfg0.N) (r : Fin 512) (d : Fin 2048),
    (n % 16 ≠ 15 → outsAt0 m c n hn (ix2 r d) = psum m c (rowIx (mtOf ⟨n, hn⟩) r) d (n % 16 + 1))
    ∧ (n % 16 = 15 → outsAt0 m c n hn (ix2 r d)
        = psum m c (rowIx (mtOf ⟨n, hn⟩) r) d 16 * aD m c (ix2 (0 : Fin 1) d)) := by
  intro n
  induction n with
  | zero =>
    intro hn r d
    refine ⟨fun _ => ?_, fun h => absurd h (by decide)⟩
    have hA := outsAt0_A m c ⟨0, hn⟩ (Nat.zero_mod 16) (by show ¬(0 % 16 = 15); decide)
    dsimp only at hA
    rw [hA, CaseValues.out_A, step_apply, PayloadRead.pay1_apply, zero_add]
    exact (partialSum_one _ _ _ _ _ d).symm
  | succ n ih =>
    intro hn r d
    have hN : cfg0.N = 128 := N_0
    have hn' : n < cfg0.N := Nat.lt_of_succ_lt hn
    by_cases h0 : (n + 1) % 16 = 0
    · -- the first tile of a row block
      have h1 : ¬(n + 1) % 16 = 15 := by omega
      refine ⟨fun _ => ?_, fun h => absurd h h1⟩
      have hA := outsAt0_A m c ⟨n + 1, hn⟩ h0 h1
      dsimp only at hA
      rw [hA, CaseValues.out_A, step_apply, PayloadRead.pay1_apply, zero_add, h0]
      refine Eq.trans ?_ (partialSum_one _ _ _ _ _ d).symm
      exact congrArg (contrib _ _ _ _ _ d) (Fin.ext h0)
    · have hprev : n % 16 ≠ 15 := by omega
      have hrow : mtOf (⟨n, hn'⟩ : Fin cfg0.N) = mtOf ⟨n + 1, hn⟩ := Fin.ext (by show n / 16 = (n + 1) / 16; omega)
      have ihv := (ih hn' r d).1 hprev
      rw [hrow] at ihv
      have hs : n % 16 + 1 = (n + 1) % 16 := by omega
      have hlt : (n + 1) % 16 < 16 := Nat.mod_lt _ (by decide)
      by_cases h1 : (n + 1) % 16 = 15
      · -- the last tile: add, then scale
        refine ⟨fun h => absurd h1 h, fun _ => ?_⟩
        have hC := outsAt0_C m c ⟨n + 1, hn⟩ h0 h1
        dsimp only at hC
        rw [hC, CaseValues.out_C]
        refine (PayloadRead.pay3_apply _ (iblk m c 4 ⟨n + 1, hn⟩) r d).trans ?_
        rw [step_apply, blk4_apply m c ⟨n + 1, hn⟩ 0 d]
        show (outsAt0 m c n _ (ix2 r d) + _) * _ = _
        rw [ihv, hs]
        refine congrArg (· * aD m c (ix2 (0 : Fin 1) d)) ?_
        have h16 : psum m c (rowIx (mtOf ⟨n + 1, hn⟩) r) d 16 = psum m c (rowIx (mtOf ⟨n + 1, hn⟩) r) d ((n + 1) % 16 + 1) := by
          rw [h1]
        rw [h16]
        show _ = partialSum _ _ _ _ _ d ((n + 1) % 16 + 1)
        rw [partialSum_succ _ _ _ _ _ d _ hlt]
        rfl
      · -- a middle tile: add
        refine ⟨fun _ => ?_, fun h => absurd h h1⟩
        have hB := outsAt0_B m c ⟨n + 1, hn⟩ h0 h1
        dsimp only at hB
        rw [hB, CaseValues.out_B, step_apply]
        show outsAt0 m c n _ (ix2 r d) + _ = _
        rw [ihv, hs]
        show _ = partialSum _ _ _ _ _ d ((n + 1) % 16 + 1)
        rw [partialSum_succ _ _ _ _ _ d _ hlt]
        rfl

end Cert.KernelIdeal.Accum

end
-- ==== Proof.KernelValue.lean ====
/-
  The idealized kernel's result array, as one function of the arrays its region finds.

  A row block's output block is written back once, after its last hidden tile; by the accumulation invariant
  and the tiling law it then holds, at (r, d) with R = 512·(row block) + r,

      (∑ h < 8192, hidden R h · v (d, h)) · ds d.

  The eight row blocks tile the 4096 × 2048 array (row R lies in block R / 512), so the array ends holding that
  function everywhere; the program's last operation reshapes it to 2 × 2048 × 2048.
-/
import proofs.«126949_j51934744543462_2_alg».proof.Proof.Accum
import proofs.«126949_j51934744543462_2_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)
open Idealize.ShloMosaic.ValueIdx

namespace Cert.KernelIdeal.KernelValue

open Cert.KernelIdeal Cert.KernelIdeal.Gen Cert.KernelIdeal.Blocks Cert.KernelIdeal.Accum Cert.MlpSpec

variable (m : (ℓ : Loc nD τ sig) → Buf (Elt Ideal) ℓ) (ρ : Dev nD → PrngReg)

/-- The output array after the region, index by index. -/
def Gout (c : Dev nD) : Mat 4096 2048 := fun i =>
  out (aX m c) (aW m c) (aS m c) (aV m c) (aD m c) ⟨(i 0).val, idx2_lt0 i⟩ ⟨(i 1).val, idx2_lt1 i⟩

theorem Gout_apply (c : Dev nD) (R : Fin 4096) (d : Fin 2048) :
    Gout m c (ix2 R d) = out (aX m c) (aW m c) (aS m c) (aV m c) (aD m c) R d := rfl

/-- WHAT A WRITE-BACK WRITES: after the last hidden tile of a row block, that block of `Gout`. -/
theorem flushed_eq (c : Dev nD) (t : Fin cfg0.N) (hf : (cfg0.win 5).flush t = true) :
    (dats m 0 c).flushed 5 t = ((cfg0.win 5).blk t).view.read (Elt Ideal) (Gout m c) := by
  have h15 : t.val % 16 = 15 := (flush0_5 t).mp hf
  obtain ⟨-, -, -, -, -, -, -, -, -, -, i0, i1⟩ := idx_facts t
  show (cfg0.win 5).cut (grid0.coords t) ((dats m 0 c).after 5 t) = _
  rw [after0_5]
  funext j
  obtain ⟨r, d, rfl⟩ : ∃ (r : Fin 512) (d : Fin 2048), j = ix2 r d := ⟨j 0, j 1, eq_ix2 j⟩
  rw [View.read_apply]
  have he : ((cfg0.win 5).blk t).view.emb (ix2 r d) = ix2 (rowIx (mtOf t) r) d := funext fun a => Fin.ext (by
    match a with
    | ⟨0, _⟩ => show win0_5.index t (0 : Fin 2) * 512 + 1 * r.val = 512 * (t.val / 16) + r.val; rw [i0]; omega
    | ⟨1, _⟩ => show win0_5.index t (1 : Fin 2) * 2048 + 1 * d.val = d.val; rw [i1]; omega)
  refine ((outsAt_apply m c t.val t.isLt r d).2 h15).trans ?_
  refine Eq.trans ?_ (congrArg (Gout m c) he).symm
  rw [Gout_apply]
  unfold out
  rw [← partialSum_full]

/-- An index of the array is in point t's block iff each coordinate is in the block's range on its axis. -/
theorem mem_blk (t : Fin cfg0.N) (i : S4096x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v10).slice (win0_5.rect t)).set ↔ _
  rw [View.set_slice_whole, Rect.mem_set_unit]
  exact Iff.rfl

/-- Row R is written back by the last point of row block R / 512. -/
theorem cover (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  have hN : cfg0.N = 128 := N_0
  let t : Fin cfg0.N := ⟨16 * ((i 0).val / 512) + 15, by omega⟩
  obtain ⟨-, -, -, -, -, -, -, -, -, -, i0, i1⟩ := idx_facts t
  have tv : t.val = 16 * ((i 0).val / 512) + 15 := rfl
  refine ⟨t, (flush0_5 t).mpr (by omega), ?_⟩
  rw [mem_blk]
  intro a
  match a with
  | ⟨0, _⟩ => show win0_5.index t (0 : Fin 2) * 512 ≤ (i 0).val ∧ (i 0).val < win0_5.index t (0 : Fin 2) * 512 + 512; rw [i0]; omega
  | ⟨1, _⟩ => show win0_5.index t (1 : Fin 2) * 2048 ≤ (i 1).val ∧ (i 1).val < win0_5.index t (1 : Fin 2) * 2048 + 2048; rw [i1]; omega

/-- THE ARRAY after the region. -/
theorem final (c : Dev nD) : (dats m 0 c).arrAt 5 cfg0.N = Gout m c :=
  (dats m 0 c).arrAt_eq_of_cover 5 (Gout m c) (flushed_eq m c) cover

/-- The program's result: the region's array reshaped. -/
theorem tail_eq (c : Dev nD) :
    Pipeline.afterTail₀ cfgs (dats m) 0 (V0 m) [hostOps1] c main_v11
      = shapeCast S2x2048x2048 (Gout m c) shapeCasts_S4096x2048_S2x2048x2048 := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.devRef .tc main_v10)
      = Gout m c :=
    (Pipeline.withArrays_arr spec0 launch0.win.arr_inj c _ _ 5).trans (final m c)
  rw [hw]
  rfl

/-- THE RUN, READ: every weakly fair execution of the idealized kernel terminates with its result at the
    reshaped `Gout` and its arguments unchanged. -/
theorem run : θ_run defs (onTc (τ := τ) (main (F := Ideal))) ⟨m, fun _ => 0, ρ⟩ fun r => ∀ c : Dev nD,
      r.2.mem ((c.tc : Thread nD τ).loc main_v11) = shapeCast S2x2048x2048 (Gout m c) shapeCasts_S4096x2048_S2x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelValue

end
-- ==== Proof.Target.lean ====
/-
  The common value of both programs, as a function of the six argument arrays over the extended reals:
  at batch b, position s, output feature d,

      (∑ h < 8192, max ((∑ k < 2048, x (b, s, k) · sign (uw (h, k))) · us h) 0 · sign (dw (d, h))) · (ds d · os 0).

  The kernel computes exactly this grouping (it folds the output scale into the down scales before its
  region); the reference multiplies by `ds d` and then by `os 0`, which is the same extended real because
  multiplication is associative.
-/
import proofs.«126949_j51934744543462_2_alg».proof.Proof.Spec

noncomputable section

open Idealize.ShloMosaic Idealize.ShloMosaic.ValueIdx

namespace Cert.MlpSpec

/-- Arrays of extended reals of rank 3 and 1, with literal extents. -/
abbrev Cube (a b c : ℕ) : Type := (⟨3, ![a, b, c]⟩ : Shape).Idx → EReal
abbrev Row (a : ℕ) : Type := (⟨1, ![a]⟩ : Shape).Idx → EReal

variable (x : Cube 2 2048 2048) (uw : Mat 8192 2048) (dw : Mat 2048 8192) (us : Row 8192) (ds : Row 2048) (os : Row 1)

/-- The hidden activation at batch b, position s, hidden unit h. -/
def act (b : Fin 2) (s : Fin 2048) (h : Fin 8192) : EReal :=
  max ((∑ k : Fin 2048, x (ix3 b s k) * Ideal.sign (uw (ix2 h k))) * us (ix1 h)) 0

/-- The result at (b, s, d). -/
def mlp (b : Fin 2) (s : Fin 2048) (d : Fin 2048) : EReal :=
  (∑ h : Fin 8192, act x uw us b s h * Ideal.sign (dw (ix2 d h))) * (ds (ix1 d) * os (ix1 (0 : Fin 1)))

/-- The result array. -/
def res : Cube 2 2048 2048 := fun i =>
  mlp x uw dw us ds os ⟨(i 0).val, (i 0).isLt⟩ ⟨(i 1).val, (i 1).isLt⟩ ⟨(i 2).val, (i 2).isLt⟩

theorem res_apply (b : Fin 2) (s : Fin 2048) (d : Fin 2048) :
    res x uw dw us ds os (ix3 b s d) = mlp x uw dw us ds os b s d := rfl

end Cert.MlpSpec

end
-- ==== Proof.KernelResult.lean ====
/-
  The idealized kernel's result is `res` of its arguments.

  Before the region the host reshapes the inputs to 4096 × 2048 (row 2048·b + s is batch b, position s), takes
  the signs of both weight arrays (the change of format after it is the identity), lays the up-scales out as
  one row, and multiplies the down-scales by the output scale before laying them out as one row. After the
  region it reshapes the 4096 × 2048 result back to 2 × 2048 × 2048. Reading each of these at an index turns
  the region's function `out` into `mlp` of the arguments.
-/
import proofs.«126949_j51934744543462_2_alg».proof.Proof.KernelValue
import proofs.«126949_j51934744543462_2_alg».proof.Proof.Target
import proofs.«126949_j51934744543462_2_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)
open Idealize.ShloMosaic.ValueIdx

namespace Cert.KernelIdeal.KernelResult

open Cert.KernelIdeal Cert.KernelIdeal.Gen Cert.KernelIdeal.Accum Cert.KernelIdeal.KernelValue Cert.MlpSpec

variable (m : (ℓ : Loc nD τ sig) → Buf (Elt Ideal) ℓ)

/-- The six argument arrays, as arrays of extended reals. -/
abbrev g0 (c : Dev nD) : Cube 2 2048 2048 := m ((c.tc : Thread nD τ).loc main_arg0)
abbrev g1 (c : Dev nD) : Mat 8192 2048 := m ((c.tc : Thread nD τ).loc main_arg1)
abbrev g2 (c : Dev nD) : Mat 2048 8192 := m ((c.tc : Thread nD τ).loc main_arg2)
abbrev g3 (c : Dev nD) : Row 8192 := m ((c.tc : Thread nD τ).loc main_arg3)
abbrev g4 (c : Dev nD) : Row 2048 := m ((c.tc : Thread nD τ).loc main_arg4)
abbrev g5 (c : Dev nD) : Row 1 := m ((c.tc : Thread nD τ).loc main_arg5)

/-! ## The arrays the region finds, as the host operations before it leave them -/

theorem aX_eq (c : Dev nD) :
    aX m c = shapeCast S4096x2048 (g0 m c) shapeCasts_S2x2048x2048_S4096x2048 := by
  show StableHlo.after hostOps0 (fun b => m (c, b)) (Proc.devRef .tc main_v0) = _
  after_results <;> rfl

theorem aW_eq (c : Dev nD) :
    aW m c = truncf (F := Ideal) (s := S8192x2048) (φ := .f32) .bf16 (Host.sign (F := Ideal) (s := S8192x2048) (φ := .f32) (g1 m c)) bitsLt_bf16_f32 := by
  show StableHlo.after hostOps0 (fun b => m (c, b)) (Proc.devRef .tc main_v2) = _
  after_results <;> rfl

theorem aV_eq (c : Dev nD) :
    aV m c = truncf (F := Ideal) (s := S2048x8192) (φ := .f32) .bf16 (Host.sign (F := Ideal) (s := S2048x8192) (φ := .f32) (g2 m c)) bitsLt_bf16_f32 := by
  show StableHlo.after hostOps0 (fun b => m (c, b)) (Proc.devRef .tc main_v4) = _
  after_results <;> rfl

theorem aS_eq (c : Dev nD) :
    aS m c = shapeCast S1x8192 (g3 m c) shapeCasts_S8192_S1x8192 := by
  show StableHlo.after hostOps0 (fun b => m (c, b)) (Proc.devRef .tc main_v5) = _
  after_results <;> rfl

theorem aD_eq (c : Dev nD) :
    aD m c = shapeCast S1x2048 (mulf (F := Ideal) (s := S2048) (φ := .f32) (g4 m c)
      (broadcastInDim S2048 ![] bcast_S_S2048 (shapeCast S_ (g5 m c) shapeCasts_S1_S_)))
      shapeCasts_S2048_S1x2048 := by
  show StableHlo.after hostOps0 (fun b => m (c, b)) (Proc.devRef .tc main_v9) = _
  after_results <;> rfl

/-! ## Each read at an index -/

/-- Batch b, position s is row 2048·b + s. -/
def row2 (b : Fin 2) (s : Fin 2048) : Fin 4096 := ⟨2048 * b.val + s.val, by omega⟩

theorem aX_apply (c : Dev nD) (b : Fin 2) (s k : Fin 2048) :
    aX m c (ix2 (row2 b s) k) = g0 m c (ix3 b s k) := by
  rw [aX_eq]
  refine shapeCast_apply _ _ (ix2 (row2 b s) k) (ix3 b s k) ?_
  rw [Shape.rowMajor_val_three, Shape.rowMajor_val_two]
  show (b.val * 2048 + s.val) * 2048 + k.val = (2048 * b.val + s.val) * 2048 + k.val
  omega

theorem aW_apply (c : Dev nD) (h : Fin 8192) (k : Fin 2048) :
    aW m c (ix2 h k) = Ideal.sign (g1 m c (ix2 h k)) := by
  rw [aW_eq]; rfl

theorem aV_apply (c : Dev nD) (d : Fin 2048) (h : Fin 8192) :
    aV m c (ix2 d h) = Ideal.sign (g2 m c (ix2 d h)) := by
  rw [aV_eq]; rfl

theorem aS_apply (c : Dev nD) (h : Fin 8192) :
    aS m c (ix2 (0 : Fin 1) h) = g3 m c (ix1 h) := by
  rw [aS_eq]
  exact shapeCast_a_1a_apply _ _ 0 h

theorem aD_apply (c : Dev nD) (d : Fin 2048) :
    aD m c (ix2 (0 : Fin 1) d)
      = g4 m c (ix1 d) * g5 m c (ix1 (0 : Fin 1)) := by
  rw [aD_eq]
  refine (shapeCast_a_1a_apply _ _ 0 d).trans ?_
  rw [mulf_apply]
  refine congrArg (g4 m c (ix1 d) * ·) ?_
  refine (broadcastInDim_apply _ bcast_S_S2048 _ (ix1 d) ix0 (fun a => a.elim0)).trans ?_
  refine shapeCast_apply _ _ ix0 (ix1 (0 : Fin 1)) ?_
  rw [Shape.rowMajor_val_one]
  exact (Shape.rowMajorPi_zero _ _).symm

/-! ## The result -/

/-- The region's function at row 2048·b + s is `mlp` at (b, s). -/
theorem out_apply (c : Dev nD) (b : Fin 2) (s d : Fin 2048) :
    out (aX m c) (aW m c) (aS m c) (aV m c) (aD m c) (row2 b s) d
      = mlp (g0 m c) (g1 m c) (g2 m c) (g3 m c) (g4 m c) (g5 m c) b s d := by
  unfold out mlp
  rw [aD_apply]
  refine congrArg (· * _) (Finset.sum_congr rfl fun h _ => ?_)
  rw [aV_apply]
  refine congrArg (· * _) ?_
  unfold MlpSpec.hidden act
  rw [aS_apply, Finset.sum_congr rfl fun k _ => by rw [aX_apply, aW_apply]]

/-- THE KERNEL'S RESULT IS `res`: the reshape back reads row 2048·b + s at (b, s). -/
theorem result_eq (c : Dev nD) :
    shapeCast S2x2048x2048 (Gout m c) shapeCasts_S4096x2048_S2x2048x2048
      = res (g0 m c) (g1 m c) (g2 m c) (g3 m c) (g4 m c) (g5 m c) := by
  funext i
  obtain ⟨b, s, d, rfl⟩ : ∃ (b : Fin 2) (s : Fin 2048) (d : Fin 2048), i = ix3 b s d := ⟨i 0, i 1, i 2, eq_ix3 i⟩
  rw [res_apply, ← out_apply, ← Gout_apply]
  refine shapeCast_apply _ _ (ix3 b s d) (ix2 (row2 b s) d) ?_
  rw [Shape.rowMajor_val_three, Shape.rowMajor_val_two]
  show (2048 * b.val + s.val) * 2048 + d.val = (b.val * 2048 + s.val) * 2048 + d.val
  omega

end Cert.KernelIdeal.KernelResult

end
-- ==== Proof.RefStages.lean ====
/-
  The reference program read one operation at a time, at the extended reals: its result array is `res` of its
  arguments. At (b, s, d) the host computes

      ((∑ h, max ((∑ k, x (b, s, k) · sign (uw (h, k))) · us h) 0 · sign (dw (d, h))) · ds d) · os 0,

  each contraction a plain sum, each broadcast a re-indexing; re-associating the last two products gives `mlp`.
-/
import proofs.«126949_j51934744543462_2_alg».proof.Proof.Gen.ReferenceIdeal.Run
import proofs.«126949_j51934744543462_2_alg».proof.Proof.Gen.ReferenceIdeal.Read
import proofs.«126949_j51934744543462_2_alg».proof.Proof.Target

noncomputable section

open Idealize.ShloMosaic Idealize.ShloMosaic.TcCoe Idealize.SL.Sem Idealize.ShloMosaic.ValueIdx

namespace Cert.ReferenceIdeal.RefStages

open Cert.ReferenceIdeal Cert.ReferenceIdeal.Gen Cert.ReferenceIdeal.Read Cert.MlpSpec

variable (x0 : (⟨S2x2048x2048, .f32⟩ : BufTy).Contents (Elt Ideal)) (x1 : (⟨S8192x2048, .f32⟩ : BufTy).Contents (Elt Ideal))
  (x2 : (⟨S2048x8192, .f32⟩ : BufTy).Contents (Elt Ideal)) (x3 : (⟨S8192, .f32⟩ : BufTy).Contents (Elt Ideal))
  (x4 : (⟨S2048, .f32⟩ : BufTy).Contents (Elt Ideal)) (x5 : (⟨S1, .f32⟩ : BufTy).Contents (Elt Ideal))

/-! The composed index maps of the stages, at coordinates. -/

theorem ix_x (b : Fin 2) (s d : Fin 2048) (h : Fin 8192) (k : Fin 2048) :
    lidx_main_v2 (lidx_main_v7 (ix3 b s d) h) k = ix3 b s k :=
  funext fun a => Fin.ext (by match a with | ⟨0, _⟩ => rfl | ⟨1, _⟩ => rfl | ⟨2, _⟩ => rfl)
theorem ix_uw (b : Fin 2) (s d : Fin 2048) (h : Fin 8192) (k : Fin 2048) :
    ridx_main_v2 (lidx_main_v7 (ix3 b s d) h) k = ix2 h k :=
  funext fun a => Fin.ext (by match a with | ⟨0, _⟩ => rfl | ⟨1, _⟩ => rfl)
theorem ix_us (b : Fin 2) (s d : Fin 2048) (h : Fin 8192) :
    idx_main_v3 (idx_main_v4 (lidx_main_v7 (ix3 b s d) h)) = ix1 h :=
  funext fun a => Fin.ext (by match a with | ⟨0, _⟩ => rfl)
theorem ix_dw (b : Fin 2) (s d : Fin 2048) (h : Fin 8192) :
    ridx_main_v7 (ix3 b s d) h = ix2 d h :=
  funext fun a => Fin.ext (by match a with | ⟨0, _⟩ => rfl | ⟨1, _⟩ => rfl)
theorem ix_ds (b : Fin 2) (s d : Fin 2048) :
    idx_main_v8 (idx_main_v9 (ix3 b s d)) = ix1 d :=
  funext fun a => Fin.ext (by match a with | ⟨0, _⟩ => rfl)
theorem ix_os (b : Fin 2) (s d : Fin 2048) :
    idx_main_v11 (idx_main_v12 (ix3 b s d)) = ix1 (0 : Fin 1) :=
  funext fun a => Fin.ext (by match a with | ⟨0, _⟩ => rfl)

/-- The hidden activation as the host computes it. -/
theorem act_apply (b : Fin 2) (s d : Fin 2048) (h : Fin 8192) :
    val_main_v6 (F := Ideal) x0 x1 x3 (lidx_main_v7 (ix3 b s d) h) = act x0 x1 x3 b s h := by
  rw [val_main_v6_apply, val_main_v5_apply, val_main_v2_apply, val_main_v4_apply, val_main_v3_apply,
    val_main_call0_v0_apply, val_main_call0_cst_apply, ix_us]
  unfold act
  simp only [val_main_v0_apply, ix_x, ix_uw, Ideal.maximumf_def, Ideal.mulf_def, Ideal.hostUnary_sign_def]
  show max _ (Ideal.ofBits .f32 0x00000000#32) = _
  rw [Ideal.ofBits_zero_f32]

/-- The reference's result at an index. -/
theorem ref_apply (b : Fin 2) (s d : Fin 2048) :
    val_main_v13 (F := Ideal) x0 x1 x2 x3 x4 x5 (ix3 b s d) = mlp x0 x1 x2 x3 x4 x5 b s d := by
  rw [val_main_v13_apply, val_main_v10_apply, val_main_v7_apply, val_main_v9_apply, val_main_v8_apply,
    val_main_v12_apply, val_main_v11_apply, ix_ds, ix_os]
  unfold mlp
  simp only [Ideal.mulf_def]
  rw [mul_assoc]
  refine congrArg (· * (x4 (ix1 d) * x5 (ix1 (0 : Fin 1)))) (Finset.sum_congr rfl fun h _ => ?_)
  rw [act_apply, val_main_v1_apply, ix_dw, Ideal.hostUnary_sign_def]

/-- THE REFERENCE IS `res`. -/
theorem ref_eq : val_main_v13 (F := Ideal) x0 x1 x2 x3 x4 x5 = res x0 x1 x2 x3 x4 x5 := by
  funext i
  obtain ⟨b, s, d, rfl⟩ : ∃ (b : Fin 2) (s : Fin 2048) (d : Fin 2048), i = ix3 b s d := ⟨i 0, i 1, i 2, eq_ix3 i⟩
  rw [ref_apply, res_apply]

end Cert.ReferenceIdeal.RefStages

end
-- ==== Proof.lean ====
/-
  A two-layer perceptron with sign weights — inputs x[2, 2048, 2048], up-projection signs of uw[8192, 2048]
  with scales us[8192], a clip at 0, down-projection signs of dw[2048, 8192] with scales ds[2048], and an
  output scale os[1] — computed by a tiled kernel and by a plain reference; over the extended reals both
  end with, at batch b, position s, output feature d,

      (∑ h < 8192, max ((∑ k < 2048, x (b, s, k) · sign (uw (h, k))) · us h) 0 · sign (dw (d, h))) · (ds d · os 0).

  The kernel flattens (b, s) to 4096 rows, works on 8 row blocks × 16 hidden tiles, accumulates each row
  block's output across its hidden tiles in the output block itself (zeroed at the first tile, scaled by
  ds·os after the last) and reshapes back. Two laws join the sides: a sum over the 8192 hidden units is the sum
  of the 16 tiles' sums (addition is commutative and associative), and (a · ds) · os = a · (ds · os)
  (multiplication is associative). Neither needs the inputs to be finite, so the precondition is never opened.

  Modules: Spec (the per-row function and the tiling law), Target (the function of the arguments), PayloadRead
  (the body's stored values at an index), CaseValues (what each control case leaves in the output block),
  Blocks (the windows' blocks at a point), Accum (the invariant of the accumulation, by induction on the
  point), KernelValue (the output array and the kernel's run), KernelResult (the host operations around the
  region), RefStages (the reference, stage by stage).
-/
import proofs.«126949_j51934744543462_2_alg».proof.Defs
import proofs.«126949_j51934744543462_2_alg».proof.Proof.Gen.Kernel
import proofs.«126949_j51934744543462_2_alg».proof.Proof.Gen.Kernel.Skeleton
import proofs.«126949_j51934744543462_2_alg».proof.Proof.Gen.Kernel.Launch
import proofs.«126949_j51934744543462_2_alg».proof.Proof.Gen.Kernel.Points
import proofs.«126949_j51934744543462_2_alg».proof.Proof.Gen.Kernel.Frame
import proofs.«126949_j51934744543462_2_alg».proof.Proof.Gen.KernelIdeal
import proofs.«126949_j51934744543462_2_alg».proof.Proof.Gen.KernelIdeal.Skeleton
import proofs.«126949_j51934744543462_2_alg».proof.Proof.Gen.KernelIdeal.Launch
import proofs.«126949_j51934744543462_2_alg».proof.Proof.Gen.KernelIdeal.Points
import proofs.«126949_j51934744543462_2_alg».proof.Proof.Gen.KernelIdeal.Frame
import proofs.«126949_j51934744543462_2_alg».proof.Proof.Gen.ReferenceIdeal
import proofs.«126949_j51934744543462_2_alg».proof.Proof.Gen.ReferenceIdeal.Run
import proofs.«126949_j51934744543462_2_alg».proof.Proof.Gen.ReferenceIdeal.Read
import proofs.«126949_j51934744543462_2_alg».proof.Proof.Gen.Pre_finite_inputs
import proofs.«126949_j51934744543462_2_alg».proof.Proof.KernelResult
import proofs.«126949_j51934744543462_2_alg».proof.Proof.RefStages
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten to idealize the kernel. -/
theorem preserves : Cert.preserves_Kernel_KernelIdeal := trivial

/-- Both idealized programs end with `res` of the (agreeing) arguments. -/
theorem algebraic : Cert.algebraic_KernelIdeal_ReferenceIdeal := by
  intro m ρ m' ρ' _ hagree
  refine ⟨fun c => Cert.MlpSpec.res (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelResult.result_eq m c), (h c).2⟩)
      (Cert.KernelIdeal.KernelValue.run m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v13_eq (F := Ideal) _ _ _ _ _ _).trans ?_
    rw [Cert.ReferenceIdeal.RefStages.ref_eq]
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
